-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x256x256 : Shape := ⟨4, ![16, 64, 256, 256]⟩
abbrev S_ : Shape := ⟨0, ![]⟩

class Facts : Prop where
  bcast_S_S16x64x256x256 : S_.BroadcastsInDim S16x64x256x256 (![] : Fin 0 → Fin S16x64x256x256.rank)
  reducesTo_S16x64x256x256_S_d0_1_2_3 : S16x64x256x256.ReducesTo [0, 1, 2, 3] S_
  h_S_ : 0 < S_.numel

variable [Facts]

def fn {F : FTy → Type} [FloatOps F] (main_arg0 : FVec F S16x64x256x256 .f32) : IVec S_ 1 :=
  let main_v0 : FVec F S16x64x256x256 .f32 := Host.absf main_arg0
  let main_cst : FVec F S_ .f32 := constant S_ .f32 0x7F800000#32
  let main_v1 : FVec F S16x64x256x256 .f32 := broadcastInDim S16x64x256x256 ![] bcast_S_S16x64x256x256 main_cst
  let main_v2 : IVec S16x64x256x256 1 := cmpf .olt main_v0 main_v1
  let main_c : IVec S_ 1 := constantI S_ 1 1#1
  let main_v3 : IVec S_ 1 := (fun x v => Host.reduce IntOp.andi x v reducesTo_S16x64x256x256_S_d0_1_2_3 h_S_) main_v2 main_c
  main_v3
-- ==== Kernel.lean ====
abbrev S16x64x256x256 : Shape := ⟨4, ![16, 64, 256, 256]⟩
abbrev S1x64x256x128 : Shape := ⟨4, ![1, 64, 256, 128]⟩
abbrev S64x256x128 : Shape := ⟨3, ![64, 256, 128]⟩
abbrev S256x128 : Shape := ⟨2, ![256, 128]⟩
abbrev S128 : Shape := ⟨1, ![128]⟩
abbrev S1x128 : Shape := ⟨2, ![1, 128]⟩
abbrev S1x256x128 : Shape := ⟨3, ![1, 256, 128]⟩
abbrev S64x128 : Shape := ⟨2, ![64, 128]⟩
abbrev S64x1x128 : Shape := ⟨3, ![64, 1, 128]⟩

abbrev nBuf : Space → Nat
  | .hbm => 2
  | .vmem => 4
  | .smem => 0
  | _ => 0

abbrev bufTy : (tb : Table) → Fin (tcTables nBuf tb) → BufTy
  | .hbm, ⟨0, _⟩ => ⟨S16x64x256x256, .f32⟩
  | .hbm, ⟨1, _⟩ => ⟨S16x64x256x256, .f32⟩
  | .local _ .vmem, ⟨0, _⟩ => ⟨S1x64x256x128, .f32⟩
  | .local _ .vmem, ⟨1, _⟩ => ⟨S1x64x256x128, .f32⟩
  | .local _ .vmem, ⟨2, _⟩ => ⟨S1x64x256x128, .f32⟩
  | .local _ .vmem, ⟨3, _⟩ => ⟨S1x64x256x128, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x64x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x64x256x128_S1x64x256x128_0_0_0_0 : ∀ a, (![0, 0, 0, 0] : Fin 4 → Nat) a + S1x64x256x128.size a ≤ S1x64x256x128.size a
  h_S1x64x256x128 : 0 < S1x64x256x128.numel
  shapeCasts_S1x64x256x128_S64x256x128 : S1x64x256x128.ShapeCasts S64x256x128
  reduces_S64x256x128_S256x128 : S64x256x128.Reduces [0] S256x128
  reduces_S256x128_S128 : S256x128.Reduces [0] S128
  shapeCasts_S128_S1x128 : S128.ShapeCasts S1x128
  broadcasts_S1x128_S256x128 : S1x128.Broadcasts S256x128
  shapeCasts_S256x128_S1x256x128 : S256x128.ShapeCasts S1x256x128
  broadcasts_S1x256x128_S64x256x128 : S1x256x128.Broadcasts S64x256x128
  reduces_S64x256x128_S64x128 : S64x256x128.Reduces [1] S64x128
  broadcasts_S1x128_S64x128 : S1x128.Broadcasts S64x128
  shapeCasts_S64x128_S64x1x128 : S64x128.ShapeCasts S64x1x128
  shapeCasts_S64x1x128_S64x1x128 : S64x1x128.ShapeCasts S64x1x128
  broadcasts_S64x1x128_S64x256x128 : S64x1x128.Broadcasts S64x256x128
  shapeCasts_S64x256x128_S1x64x256x128 : S64x256x128.ShapeCasts S1x64x256x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x256x128.size a ≤ S16x64x256x256.size a
  hwx0_0 : ∀ i : grid0.Coords, EltTy.bits .f32 = 32 ∨ (Rect.block (s := S16x64x256x256) S1x64x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256x128.size a ≤ S16x64x256x256.size a
  hwx0_1 : ∀ i : grid0.Coords, EltTy.bits .f32 = 32 ∨ (Rect.block (s := S16x64x256x256) S1x64x256x128.size (cc0_transform_1 i) (hinb0_1 i)).WholeWords (EltTy.packing .f32)

variable [Facts₀]

abbrev win0_0 : Pipeline.Window sig grid0 :=
  Pipeline.Window.ofSpec (Memref.whole main_arg0) S1x64x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x256x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x256x256 : Shape := ⟨4, ![16, 64, 256, 256]⟩
abbrev S_ : Shape := ⟨0, ![]⟩
abbrev S16x256x256 : Shape := ⟨3, ![16, 256, 256]⟩
abbrev S16x1x256x256 : Shape := ⟨4, ![16, 1, 256, 256]⟩
abbrev S16x1x256 : Shape := ⟨3, ![16, 1, 256]⟩
abbrev S16x1x1x256 : Shape := ⟨4, ![16, 1, 1, 256]⟩
abbrev S16x64x256 : Shape := ⟨3, ![16, 64, 256]⟩
abbrev S16x64x1x256 : Shape := ⟨4, ![16, 64, 1, 256]⟩

abbrev nBuf : Space → Nat
  | .hbm => 34
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S16x64x256x256, .f32⟩
  | .hbm, ⟨2, _⟩ => ⟨S_, .f32⟩
  | .hbm, ⟨3, _⟩ => ⟨S16x256x256, .f32⟩
  | .hbm, ⟨4, _⟩ => ⟨S16x1x256x256, .f32⟩
  | .hbm, ⟨5, _⟩ => ⟨S16x1x256x256, .f32⟩
  | .hbm, ⟨6, _⟩ => ⟨S_, .f32⟩
  | .hbm, ⟨7, _⟩ => ⟨S16x1x256, .f32⟩
  | .hbm, ⟨8, _⟩ => ⟨S_, .f32⟩
  | .hbm, ⟨9, _⟩ => ⟨S16x1x256, .f32⟩
  | .hbm, ⟨10, _⟩ => ⟨S16x1x256, .f32⟩
  | .hbm, ⟨11, _⟩ => ⟨S16x1x1x256, .f32⟩
  | .hbm, ⟨12, _⟩ => ⟨S16x1x256x256, .f32⟩
  | .hbm, ⟨13, _⟩ => ⟨S16x1x256x256, .f32⟩
  | .hbm, ⟨14, _⟩ => ⟨S16x1x256x256, .f32⟩
  | .hbm, ⟨15, _⟩ => ⟨S_, .f32⟩
  | .hbm, ⟨16, _⟩ => ⟨S16x1x256, .f32⟩
  | .hbm, ⟨17, _⟩ => ⟨S16x1x1x256, .f32⟩
  | .hbm, ⟨18, _⟩ => ⟨S16x1x256x256, .f32⟩
  | .hbm, ⟨19, _⟩ => ⟨S16x1x256x256, .f32⟩
  | .hbm, ⟨20, _⟩ => ⟨S16x64x256x256, .f32⟩
  | .hbm, ⟨21, _⟩ => ⟨S16x64x256x256, .f32⟩
  | .hbm, ⟨22, _⟩ => ⟨S_, .f32⟩
  | .hbm, ⟨23, _⟩ => ⟨S16x64x256, .f32⟩
  | .hbm, ⟨24, _⟩ => ⟨S16x64x1x256, .f32⟩
  | .hbm, ⟨25, _⟩ => ⟨S_, .f32⟩
  | .hbm, ⟨26, _⟩ => ⟨S16x1x256, .f32⟩
  | .hbm, ⟨27, _⟩ => ⟨S16x1x1x256, .f32⟩
  | .hbm, ⟨28, _⟩ => ⟨S_, .f32⟩
  | .hbm, ⟨29, _⟩ => ⟨S16x1x1x256, .f32⟩
  | .hbm, ⟨30, _⟩ => ⟨S16x1x1x256, .f32⟩
  | .hbm, ⟨31, _⟩ => ⟨S16x64x1x256, .f32⟩
  | .hbm, ⟨32, _⟩ => ⟨S16x64x1x256, .f32⟩
  | .hbm, ⟨33, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_3 : Ref sig .tc := ⟨.hbm, 22, rfl⟩
abbrev main_v17 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_v20 : Ref sig .tc := ⟨.hbm, 27, rfl⟩
abbrev main_cst_5 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]

class Facts₀ : Prop where
  reducesTo_S16x64x256x256_S16x256x256_d1 : S16x64x256x256.ReducesTo [1] S16x256x256
  h_S_ : 0 < S_.numel
  bcast_S16x256x256_S16x1x256x256_0_2_3 : S16x256x256.BroadcastsInDim S16x1x256x256 (![0, 2, 3] : Fin 3 → Fin S16x1x256x256.rank)
  reducesTo_S16x1x256x256_S16x1x256_d2 : S16x1x256x256.ReducesTo [2] S16x1x256
  bcast_S_S16x1x256 : S_.BroadcastsInDim S16x1x256 (![] : Fin 0 → Fin S16x1x256.rank)
  bcast_S16x1x256_S16x1x1x256_0_1_3 : S16x1x256.BroadcastsInDim S16x1x1x256 (![0, 1, 3] : Fin 3 → Fin S16x1x1x256.rank)
  bcast_S16x1x1x256_S16x1x256x256_0_1_2_3 : S16x1x1x256.BroadcastsInDim S16x1x256x256 (![0, 1, 2, 3] : Fin 4 → Fin S16x1x256x256.rank)
  bcast_S16x1x256x256_S16x64x256x256_0_1_2_3 : S16x1x256x256.BroadcastsInDim S16x64x256x256 (![0, 1, 2, 3] : Fin 4 → Fin S16x64x256x256.rank)
  reducesTo_S16x64x256x256_S16x64x256_d2 : S16x64x256x256.ReducesTo [2] S16x64x256
  bcast_S16x64x256_S16x64x1x256_0_1_3 : S16x64x256.BroadcastsInDim S16x64x1x256 (![0, 1, 3] : Fin 3 → Fin S16x64x1x256.rank)
  bcast_S_S16x1x1x256 : S_.BroadcastsInDim S16x1x1x256 (![] : Fin 0 → Fin S16x1x1x256.rank)
  bcast_S16x1x1x256_S16x64x1x256_0_1_2_3 : S16x1x1x256.BroadcastsInDim S16x64x1x256 (![0, 1, 2, 3] : Fin 4 → Fin S16x64x1x256.rank)
  bcast_S16x64x1x256_S16x64x256x256_0_1_2_3 : S16x64x1x256.BroadcastsInDim S16x64x256x256 (![0, 1, 2, 3] : Fin 4 → Fin S16x64x256x256.rank)

variable [Facts₀]

class Facts : Prop extends Facts₀ where

variable [Facts]
-- ==== Proof.PoolSpec.lean ====
/- Softmax-weighted pooling of one column, on the extended reals.

   A column is the 64 × 256 family X c h (channel c, row h) that sits under one batch entry and one lane of the
   array. Its rows are weighted by the softmax of their channel norms:
     nrm X h = sqrt (∑ c, X c h * X c h)                     the norm of row h across the channels
     top X   = max over h of nrm X h (started from −∞)       the largest row norm
     ex X h  = exp (nrm X h − top X)
     sm X h  = ex X h / ∑ h', ex X h'                        the softmax weight of row h
     pool X c = (∑ h, X c h * sm X h) / (∑ h, sm X h + ε)    the weighted mean of channel c over the rows
   The result array holds pool of the column under (b, w) at channel c, in every row h. Every operation is the
   extended reals' own, so the definitions make sense (and both programs agree) at every input, finite or not. -/
import Idealize.ShloMosaic.PureOps.Ideal
import Idealize.ShloMosaic.PureOps.Ideal.Laws
import Idealize.ShloMosaic.Lib.ValueIdx

noncomputable section

open scoped BigOperators

namespace Cert.Pool

open Idealize.ShloMosaic Idealize.ShloMosaic.ValueIdx

/-- −∞, as the f32 word from which both programs start their running maximum. -/
abbrev negInf : EReal := Ideal.ofBits .f32 0xFF800000#32
/-- The small constant added to the sum of the weights, as the f32 word both programs carry. -/
abbrev eps : EReal := Ideal.ofBits .f32 0x322BCC77#32

/-- A column: channel c, row h. -/
abbrev Col := Fin 64 → Fin 256 → EReal

/-- The norm of row h across the 64 channels. -/
def nrm (X : Col) (h : Fin 256) : EReal := Ideal.sqrt (∑ c : Fin 64, X c h * X c h)
/-- The largest row norm: the fold of max over the 256 rows, started from −∞. -/
def top (X : Col) : EReal := (Finset.univ : Finset (Fin 256)).fold max negInf (nrm X)
/-- The shifted exponential of row h's norm. -/
def ex (X : Col) (h : Fin 256) : EReal := Ideal.exp (nrm X h - top X)
/-- The softmax weight of row h. -/
def sm (X : Col) (h : Fin 256) : EReal := Ideal.div (ex X h) (∑ h' : Fin 256, ex X h')
/-- Channel c pooled over the rows with the softmax weights. -/
def pool (X : Col) (c : Fin 64) : EReal :=
  Ideal.div (∑ h : Fin 256, X c h * sm X h) ((∑ h : Fin 256, sm X h) + eps)

/-- The shape of the argument and of the result: batch, channel, row, lane. -/
abbrev SArr : Shape := ⟨4, ![16, 64, 256, 256]⟩

/-- The column of the array x under batch entry b and lane w. -/
def col (x : SArr.Idx → EReal) (b : Fin 16) (w : Fin 256) : Col := fun c h => x (ix4 b c h w)

/-- The result as one function of the argument array, index by index: the pooled channel, the same in every row. -/
def G (x : SArr.Idx → EReal) : SArr.Idx → EReal := fun i => pool (col x (i 0) (i 3)) (i 1)

/-- −∞ is the bottom of the extended reals, so taking the maximum with it changes nothing. -/
theorem max_negInf (y : EReal) : max negInf y = y := by
  show max (Ideal.ofBits .f32 0xFF800000#32) y = y
  simp [Ideal.ofBits, Ideal.ieee]

/-- The f32 zero word is the extended real 0, so a sum started from it is the sum. -/
theorem zero_word_add (y : EReal) : Ideal.ofBits .f32 0x00000000#32 + y = y := by
  rw [Ideal.ofBits_zero_f32, zero_add]

/-- The pooled value depends only on the column and on the channel's number. -/
theorem pool_congr {X Y : Col} {c c' : Fin 64} (hX : X = Y) (hc : c.val = c'.val) : pool X c = pool Y c' := by
  subst hX; rw [Fin.ext hc]

end Cert.Pool

end
-- ==== Proof.RefPool.lean ====
/- The reference computes the pooling function.

   Read one operation at a time, the reference's stages are, under batch entry b and lane w: the row norms
   (stage 3), their maximum (stages 4 to 6: a fold of max over the rows from −∞, then one more max with −∞, which
   changes nothing), the shifted exponentials (stage 10) and their sum (stage 11), the softmax weights (stage 14),
   the weighted sum of a channel over the rows (stage 17), the sum of the weights (stage 19), and the quotient
   broadcast over the rows (stages 24, 25). Each lemma below identifies one of these with the corresponding
   function of the column, at an index given by its coordinates; a sum started from the zero word is the sum. -/
import proofs.«177151_j51994874086000_1_alg».proof.Proof.Gen.ReferenceIdeal.Read
import proofs.«177151_j51994874086000_1_alg».proof.Proof.PoolSpec
import Idealize.ShloMosaic.Lib.ValueIdx
import Idealize.ShloMosaic.PureOps.Ideal.Laws

noncomputable section

open scoped BigOperators

namespace Cert.RefPool

open Cert.ReferenceIdeal Cert.ReferenceIdeal.Gen Cert.ReferenceIdeal.Read Cert.Pool
open Idealize.ShloMosaic Idealize.ShloMosaic.ValueIdx Idealize.ShloMosaic.TcCoe Idealize.ShloMosaic.StableHlo

variable (x : (⟨S16x64x256x256, .f32⟩ : BufTy).Contents (Elt Ideal))

/-- Stage 3 at (b, ·, h, w) is the norm of row h of the column under (b, w). -/
theorem ref_nrm (q : S16x1x256x256.Idx) (b : Fin 16) (h w : Fin 256)
    (hb : (q 0).val = b.val) (hh : (q 2).val = h.val) (hw : (q 3).val = w.val) :
    val_main_v3 (F := Ideal) x q = nrm (col x b w) h := by
  rw [val_main_v3_apply, val_main_v2_apply, val_main_v1_apply]
  have e : ∀ k : Fin 64, idx_main_v1 (idx_main_v2 q) k = ix4 b k h w := fun k =>
    funext fun a => Fin.ext (by
      match a with | ⟨0, _⟩ => exact hb | ⟨1, _⟩ => rfl | ⟨2, _⟩ => exact hh | ⟨3, _⟩ => exact hw)
  simp only [e]
  show Ideal.sqrt (Ideal.ofBits .f32 0x00000000#32 + ∑ k : Fin 64, x (ix4 b k h w) * x (ix4 b k h w)) = _
  rw [zero_word_add]; rfl

/-- Stage 6 at (b, ·, w) is the largest row norm of the column: the host's max-reduce over the rows is the fold of
    max from −∞, and the further max with −∞ is the identity. -/
theorem ref_top (s : S16x1x256.Idx) (b : Fin 16) (w : Fin 256)
    (hb : (s 0).val = b.val) (hw : (s 2).val = w.val) :
    val_main_v6 (F := Ideal) x s = top (col x b w) := by
  rw [val_main_v6_apply, val_main_v5_apply, val_main_cst_1_apply]
  show max negInf (val_main_v4 (F := Ideal) x s) = _
  rw [max_negInf]
  unfold val_main_v4
  have e : (val_main_v3 (F := Ideal) x ∘ Shape.Reduces.lift (by decide : S16x1x256x256.Reduces [2] S16x1x256) s)
      = nrm (col x b w) := funext fun k => ref_nrm x _ b k w hb rfl hw
  refine (Host.reduce_eq_fold_single (FloatOps.maximumf (F := Ideal) (φ := .f32)) (val_main_v3 (F := Ideal) x)
    (val_main_cst_0 (F := Ideal)) reducesTo_S16x1x256x256_S16x1x256_d2
    (by decide : S16x1x256x256.Reduces [2] S16x1x256) h_S_ s).trans ?_
  show (Finset.univ : Finset (Fin 256)).fold max negInf
      (val_main_v3 (F := Ideal) x ∘ Shape.Reduces.lift (by decide : S16x1x256x256.Reduces [2] S16x1x256) s) = _
  rw [e]; rfl

/-- Stage 10 at (b, ·, h, w) is the shifted exponential of row h's norm. -/
theorem ref_ex (q : S16x1x256x256.Idx) (b : Fin 16) (h w : Fin 256)
    (hb : (q 0).val = b.val) (hh : (q 2).val = h.val) (hw : (q 3).val = w.val) :
    val_main_v10 (F := Ideal) x q = ex (col x b w) h := by
  rw [val_main_v10_apply, val_main_v9_apply, val_main_v8_apply, val_main_v7_apply,
    ref_nrm x q b h w hb hh hw, ref_top x _ b w hb hw]
  rfl

/-- Stage 11 at (b, ·, w) is the sum of the shifted exponentials over the rows. -/
theorem ref_esum (s : S16x1x256.Idx) (b : Fin 16) (w : Fin 256)
    (hb : (s 0).val = b.val) (hw : (s 2).val = w.val) :
    val_main_v11 (F := Ideal) x s = ∑ h : Fin 256, ex (col x b w) h := by
  rw [val_main_v11_apply]
  show Ideal.ofBits .f32 0x00000000#32 + ∑ k : Fin 256, val_main_v10 (F := Ideal) x (idx_main_v11 s k) = _
  rw [zero_word_add]
  exact Finset.sum_congr rfl fun k _ => ref_ex x _ b k w hb rfl hw

/-- Stage 14 at (b, ·, h, w) is the softmax weight of row h. -/
theorem ref_sm (q : S16x1x256x256.Idx) (b : Fin 16) (h w : Fin 256)
    (hb : (q 0).val = b.val) (hh : (q 2).val = h.val) (hw : (q 3).val = w.val) :
    val_main_v14 (F := Ideal) x q = sm (col x b w) h := by
  rw [val_main_v14_apply, val_main_v13_apply, val_main_v12_apply,
    ref_ex x q b h w hb hh hw, ref_esum x _ b w hb hw]
  rfl

/-- Stage 17 at (b, c, w) is channel c's weighted sum over the rows. -/
theorem ref_wsum (r : S16x64x256.Idx) (b : Fin 16) (c : Fin 64) (w : Fin 256)
    (hb : (r 0).val = b.val) (hc : (r 1).val = c.val) (hw : (r 2).val = w.val) :
    val_main_v17 (F := Ideal) x r = ∑ h : Fin 256, col x b w c h * sm (col x b w) h := by
  rw [val_main_v17_apply]
  show Ideal.ofBits .f32 0x00000000#32 + ∑ k : Fin 256, val_main_v16 (F := Ideal) x (idx_main_v17 r k) = _
  rw [zero_word_add]
  refine Finset.sum_congr rfl fun k _ => ?_
  rw [val_main_v16_apply, val_main_v15_apply, ref_sm x _ b k w hb rfl hw]
  have e : idx_main_v17 r k = ix4 b c k w := funext fun a => Fin.ext (by
    match a with | ⟨0, _⟩ => exact hb | ⟨1, _⟩ => exact hc | ⟨2, _⟩ => rfl | ⟨3, _⟩ => exact hw)
  rw [e]; rfl

/-- Stage 19 at (b, ·, w) is the sum of the softmax weights over the rows. -/
theorem ref_ssum (s : S16x1x256.Idx) (b : Fin 16) (w : Fin 256)
    (hb : (s 0).val = b.val) (hw : (s 2).val = w.val) :
    val_main_v19 (F := Ideal) x s = ∑ h : Fin 256, sm (col x b w) h := by
  rw [val_main_v19_apply]
  show Ideal.ofBits .f32 0x00000000#32 + ∑ k : Fin 256, val_main_v14 (F := Ideal) x (idx_main_v19 s k) = _
  rw [zero_word_add]
  exact Finset.sum_congr rfl fun k _ => ref_sm x _ b k w hb rfl hw

/-- The reference's result at an index is the pooled channel of the column under it. -/
theorem ref_G_apply (i : S16x64x256x256.Idx) : val_main_v25 (F := Ideal) x i = G x i := by
  rw [val_main_v25_apply, val_main_v24_apply, val_main_v18_apply, val_main_v23_apply, val_main_v22_apply,
    val_main_v20_apply, val_main_v21_apply, val_main_cst_5_apply,
    ref_wsum x _ (i 0) (i 1) (i 3) rfl rfl rfl, ref_ssum x _ (i 0) (i 3) rfl rfl]
  rfl

/-- The reference's result is the pooling function of its argument. -/
theorem ref_G : val_main_v25 (F := Ideal) x = G x := funext (ref_G_apply x)

end Cert.RefPool

end
-- ==== Proof.BlockPool.lean ====
/- The kernel's body computes the pooling function on its block.

   A block is one batch entry and 128 lanes of the array: P (·, c, h, w) for c < 64, h < 256, w < 128. The body drops
   the unit axis, takes the row norms by a sum over the channels, their maximum over the rows (a fold of max from
   −∞), the shifted exponentials, their sum, the softmax weights, each channel's weighted sum over the rows, the sum
   of the weights, the quotient, and lays the quotient out again over the rows. The stages are named below as the
   body composes them, and each is read at an index given by its coordinates as the corresponding function of the
   block's column under lane w. -/
import proofs.«177151_j51994874086000_1_alg».proof.Proof.Gen.KernelIdeal.Skeleton
import proofs.«177151_j51994874086000_1_alg».proof.Proof.PoolSpec
import Idealize.ShloMosaic.Lib.Pipeline.Value
import Idealize.ShloMosaic.Lib.ValueIdx
import Idealize.ShloMosaic.PureOps.Ideal.Laws

noncomputable section

open scoped BigOperators

namespace Cert.BlockPool

open Cert.KernelIdeal Cert.KernelIdeal.Facts₀ Cert.Pool
open Idealize.ShloMosaic Idealize.ShloMosaic.ValueIdx Idealize.ShloMosaic.TcCoe

variable (P : FVec Ideal S1x64x256x128 .f32)

/-- The column of the block under lane w. -/
def bcol (w : Fin 128) : Col := fun c h => P (ix4 (0 : Fin 1) c h w)

/-! ## The stages of the body, as it composes them -/

/-- The block without its unit axis. -/
def kX : FVec Ideal S64x256x128 .f32 := shapeCast S64x256x128 P shapeCasts_S1x64x256x128_S64x256x128
/-- The row norms: the square root of the sum of squares over the channels. -/
def kN : FVec Ideal S256x128 .f32 :=
  sqrt (multiReduction .add [0] S256x128 (mulf (kX P) (kX P)) 0x00000000#32 reduces_S64x256x128_S256x128 (.inl rfl) rfl)
/-- The largest row norm of each lane. -/
def kTop : FVec Ideal S128 .f32 :=
  multiReduction .maximumf [0] S128 (kN P) 0xFF800000#32 reduces_S256x128_S128 (.inl rfl) rfl
/-- The shifted exponentials. -/
def kE : FVec Ideal S256x128 .f32 :=
  exp (subf (kN P) (broadcastTo S256x128 (shapeCast S1x128 (kTop P) shapeCasts_S128_S1x128) broadcasts_S1x128_S256x128))
/-- Their sum over the rows. -/
def kES : FVec Ideal S128 .f32 :=
  multiReduction .add [0] S128 (kE P) 0x00000000#32 reduces_S256x128_S128 (.inl rfl) rfl
/-- The softmax weights. -/
def kSm : FVec Ideal S256x128 .f32 :=
  divf (kE P) (broadcastTo S256x128 (shapeCast S1x128 (kES P) shapeCasts_S128_S1x128) broadcasts_S1x128_S256x128)
/-- Each channel's weighted sum over the rows. -/
def kW : FVec Ideal S64x128 .f32 :=
  multiReduction .add [1] S64x128
    (mulf (kX P) (broadcastTo S64x256x128 (shapeCast S1x256x128 (kSm P) shapeCasts_S256x128_S1x256x128) broadcasts_S1x256x128_S64x256x128))
    0x00000000#32 reduces_S64x256x128_S64x128 (.inl rfl) rfl
/-- The sum of the weights over the rows. -/
def kS : FVec Ideal S128 .f32 :=
  multiReduction .add [0] S128 (kSm P) 0x00000000#32 reduces_S256x128_S128 (.inl rfl) rfl
/-- The pooled channels: the weighted sum over the sum of the weights plus ε. -/
def kQ : FVec Ideal S64x128 .f32 :=
  divf (kW P) (broadcastTo S64x128
    (addf (shapeCast S1x128 (kS P) shapeCasts_S128_S1x128) (broadcast S1x128 (Scalar.ofBits .f32 0x322BCC77#32)))
    broadcasts_S1x128_S64x128)

/-- The body's stored value is the pooled channels laid out over the rows again. -/
theorem pay_eq : Gen.k0_pay1 P = shapeCast S1x64x256x128 (broadcastTo S64x256x128
    (shapeCast S64x1x128 (shapeCast S64x1x128 (kQ P) shapeCasts_S64x128_S64x1x128) shapeCasts_S64x1x128_S64x1x128)
    broadcasts_S64x1x128_S64x256x128) shapeCasts_S64x256x128_S1x64x256x128 := rfl

/-! ## Each stage at an index -/

/-- Dropping the unit axis keeps the entry at (c, h, w). -/
theorem kX_apply (c : Fin 64) (h : Fin 256) (w : Fin 128) : kX P (ix3 c h w) = P (ix4 (0 : Fin 1) c h w) :=
  shapeCast_apply P shapeCasts_S1x64x256x128_S64x256x128 (ix3 c h w) (ix4 (0 : Fin 1) c h w) (by
    rw [Shape.rowMajor_val_four, Shape.rowMajor_val_three]
    show ((0 * 64 + c.val) * 256 + h.val) * 128 + w.val = (c.val * 256 + h.val) * 128 + w.val
    omega)

/-- The norm stage at (h, w) is the norm of row h of the block's column under lane w. -/
theorem kN_apply (h : Fin 256) (w : Fin 128) : kN P (ix2 h w) = nrm (bcol P w) h := by
  show Ideal.sqrt (multiReduction .add [0] S256x128 (mulf (kX P) (kX P)) 0x00000000#32
    reduces_S64x256x128_S256x128 (.inl rfl) rfl (ix2 h w)) = Ideal.sqrt (∑ c : Fin 64, bcol P w c h * bcol P w c h)
  refine congrArg Ideal.sqrt ((Ideal.multiReduction_add_single (mulf (kX P) (kX P)) 0x00000000#32
    reduces_S64x256x128_S256x128 (.inl rfl) rfl (ix2 h w)).trans ?_)
  show ∑ c : Fin 64, mulf (kX P) (kX P) (Shape.Reduces.lift reduces_S64x256x128_S256x128 (ix2 h w) c)
    = ∑ c : Fin 64, bcol P w c h * bcol P w c h
  refine Finset.sum_congr rfl fun (c : Fin 64) _ => ?_
  have e : Shape.Reduces.lift reduces_S64x256x128_S256x128 (ix2 h w) c = ix3 c h w := funext fun a => Fin.ext (by
    match a with | ⟨0, _⟩ => rfl | ⟨1, _⟩ => rfl | ⟨2, _⟩ => rfl)
  rw [e]
  show kX P (ix3 c h w) * kX P (ix3 c h w) = _
  rw [kX_apply P c h w]; rfl

/-- The maximum stage at lane w is the largest row norm of the column. -/
theorem kTop_apply (w : Fin 128) : kTop P (ix1 w) = top (bcol P w) := by
  refine (Ideal.multiReduction_maximumf_single (kN P) 0xFF800000#32 reduces_S256x128_S128 (.inl rfl) rfl (ix1 w)).trans ?_
  have e : (fun h : Fin 256 => kN P (Shape.Reduces.lift reduces_S256x128_S128 (ix1 w) h)) = nrm (bcol P w) :=
    funext fun (h : Fin 256) => by
      have e' : Shape.Reduces.lift reduces_S256x128_S128 (ix1 w) h = ix2 h w := funext fun a => Fin.ext (by
        match a with | ⟨0, _⟩ => rfl | ⟨1, _⟩ => rfl)
      rw [e', kN_apply P h w]
  show (Finset.univ : Finset (Fin 256)).fold max negInf
    (fun h : Fin 256 => kN P (Shape.Reduces.lift reduces_S256x128_S128 (ix1 w) h)) = _
  rw [e]; rfl

/-! ## Three re-layouts read at an index -/

/-- A per-lane value given a unit row axis and repeated over the 256 rows: every row reads the lane's value. -/
theorem lane_to_rows (v : FVec Ideal S128 .f32) (h : Fin 256) (w : Fin 128) :
    broadcastTo S256x128 (shapeCast S1x128 v shapeCasts_S128_S1x128) broadcasts_S1x128_S256x128 (ix2 h w) = v (ix1 w) := by
  refine (broadcastTo_apply _ _ (ix2 h w) (ix2 (0 : Fin 1) w) (fun a => match a with
    | ⟨0, _⟩ => by show 0 = (if (1 : Nat) = 1 then 0 else h.val); rw [if_pos rfl]
    | ⟨1, _⟩ => by show w.val = (if (128 : Nat) = 1 then 0 else w.val); rw [if_neg (by decide)])).trans ?_
  exact shapeCast_apply v shapeCasts_S128_S1x128 (ix2 (0 : Fin 1) w) (ix1 w) (by
    rw [Shape.rowMajor_val_one, Shape.rowMajor_val_two]
    show w.val = 0 * 128 + w.val
    omega)

/-- A (row, lane) value given a unit channel axis and repeated over the 64 channels: every channel reads it. -/
theorem rows_to_channels (v : FVec Ideal S256x128 .f32) (c : Fin 64) (h : Fin 256) (w : Fin 128) :
    broadcastTo S64x256x128 (shapeCast S1x256x128 v shapeCasts_S256x128_S1x256x128) broadcasts_S1x256x128_S64x256x128 (ix3 c h w)
      = v (ix2 h w) := by
  refine (broadcastTo_apply _ _ (ix3 c h w) (ix3 (0 : Fin 1) h w) (fun a => match a with
    | ⟨0, _⟩ => by show 0 = (if (1 : Nat) = 1 then 0 else c.val); rw [if_pos rfl]
    | ⟨1, _⟩ => by show h.val = (if (256 : Nat) = 1 then 0 else h.val); rw [if_neg (by decide)]
    | ⟨2, _⟩ => by show w.val = (if (128 : Nat) = 1 then 0 else w.val); rw [if_neg (by decide)])).trans ?_
  exact shapeCast_apply v shapeCasts_S256x128_S1x256x128 (ix3 (0 : Fin 1) h w) (ix2 h w) (by
    rw [Shape.rowMajor_val_two, Shape.rowMajor_val_three]
    show h.val * 128 + w.val = (0 * 256 + h.val) * 128 + w.val
    omega)

/-- A value with a unit first axis repeated over the 64 channels: every channel reads the lane's value. -/
theorem unit_to_channels (u : FVec Ideal S1x128 .f32) (c : Fin 64) (w : Fin 128) :
    broadcastTo S64x128 u broadcasts_S1x128_S64x128 (ix2 c w) = u (ix2 (0 : Fin 1) w) :=
  broadcastTo_apply _ _ (ix2 c w) (ix2 (0 : Fin 1) w) (fun a => match a with
    | ⟨0, _⟩ => by show 0 = (if (1 : Nat) = 1 then 0 else c.val); rw [if_pos rfl]
    | ⟨1, _⟩ => by show w.val = (if (128 : Nat) = 1 then 0 else w.val); rw [if_neg (by decide)])

/-! ## The remaining stages at an index -/

/-- The exponential stage at (h, w) is the shifted exponential of row h's norm. -/
theorem kE_apply (h : Fin 256) (w : Fin 128) : kE P (ix2 h w) = ex (bcol P w) h := by
  show Ideal.exp (kN P (ix2 h w)
      - broadcastTo S256x128 (shapeCast S1x128 (kTop P) shapeCasts_S128_S1x128) broadcasts_S1x128_S256x128 (ix2 h w))
    = Ideal.exp (nrm (bcol P w) h - top (bcol P w))
  rw [lane_to_rows (kTop P) h w, kN_apply P h w, kTop_apply P w]

/-- The sum of the exponentials at lane w. -/
theorem kES_apply (w : Fin 128) : kES P (ix1 w) = ∑ h : Fin 256, ex (bcol P w) h := by
  refine (Ideal.multiReduction_add_single (kE P) 0x00000000#32 reduces_S256x128_S128 (.inl rfl) rfl (ix1 w)).trans ?_
  show ∑ h : Fin 256, kE P (Shape.Reduces.lift reduces_S256x128_S128 (ix1 w) h) = ∑ h : Fin 256, ex (bcol P w) h
  refine Finset.sum_congr rfl fun (h : Fin 256) _ => ?_
  have e : Shape.Reduces.lift reduces_S256x128_S128 (ix1 w) h = ix2 h w := funext fun a => Fin.ext (by
    match a with | ⟨0, _⟩ => rfl | ⟨1, _⟩ => rfl)
  rw [e, kE_apply P h w]

/-- The softmax stage at (h, w) is the softmax weight of row h. -/
theorem kSm_apply (h : Fin 256) (w : Fin 128) : kSm P (ix2 h w) = sm (bcol P w) h := by
  show Ideal.div (kE P (ix2 h w))
      (broadcastTo S256x128 (shapeCast S1x128 (kES P) shapeCasts_S128_S1x128) broadcasts_S1x128_S256x128 (ix2 h w))
    = Ideal.div (ex (bcol P w) h) (∑ h' : Fin 256, ex (bcol P w) h')
  rw [lane_to_rows (kES P) h w, kE_apply P h w, kES_apply P w]

/-- The weighted-sum stage at (c, w) is channel c's weighted sum over the rows. -/
theorem kW_apply (c : Fin 64) (w : Fin 128) : kW P (ix2 c w) = ∑ h : Fin 256, bcol P w c h * sm (bcol P w) h := by
  refine (Ideal.multiReduction_add_single
    (mulf (kX P) (broadcastTo S64x256x128 (shapeCast S1x256x128 (kSm P) shapeCasts_S256x128_S1x256x128) broadcasts_S1x256x128_S64x256x128))
    0x00000000#32 reduces_S64x256x128_S64x128 (.inl rfl) rfl (ix2 c w)).trans ?_
  show ∑ h : Fin 256, mulf (kX P)
      (broadcastTo S64x256x128 (shapeCast S1x256x128 (kSm P) shapeCasts_S256x128_S1x256x128) broadcasts_S1x256x128_S64x256x128)
      (Shape.Reduces.lift reduces_S64x256x128_S64x128 (ix2 c w) h)
    = ∑ h : Fin 256, bcol P w c h * sm (bcol P w) h
  refine Finset.sum_congr rfl fun (h : Fin 256) _ => ?_
  have e : Shape.Reduces.lift reduces_S64x256x128_S64x128 (ix2 c w) h = ix3 c h w := funext fun a => Fin.ext (by
    match a with | ⟨0, _⟩ => rfl | ⟨1, _⟩ => rfl | ⟨2, _⟩ => rfl)
  rw [e]
  show kX P (ix3 c h w)
      * broadcastTo S64x256x128 (shapeCast S1x256x128 (kSm P) shapeCasts_S256x128_S1x256x128) broadcasts_S1x256x128_S64x256x128 (ix3 c h w)
    = _
  rw [kX_apply P c h w, rows_to_channels (kSm P) c h w, kSm_apply P h w]; rfl

/-- The sum of the weights at lane w. -/
theorem kS_apply (w : Fin 128) : kS P (ix1 w) = ∑ h : Fin 256, sm (bcol P w) h := by
  refine (Ideal.multiReduction_add_single (kSm P) 0x00000000#32 reduces_S256x128_S128 (.inl rfl) rfl (ix1 w)).trans ?_
  show ∑ h : Fin 256, kSm P (Shape.Reduces.lift reduces_S256x128_S128 (ix1 w) h) = ∑ h : Fin 256, sm (bcol P w) h
  refine Finset.sum_congr rfl fun (h : Fin 256) _ => ?_
  have e : Shape.Reduces.lift reduces_S256x128_S128 (ix1 w) h = ix2 h w := funext fun a => Fin.ext (by
    match a with | ⟨0, _⟩ => rfl | ⟨1, _⟩ => rfl)
  rw [e, kSm_apply P h w]

/-- The quotient stage at (c, w) is the pooled channel c of the column under lane w. -/
theorem kQ_apply (c : Fin 64) (w : Fin 128) : kQ P (ix2 c w) = pool (bcol P w) c := by
  show Ideal.div (kW P (ix2 c w))
      (broadcastTo S64x128
        (addf (shapeCast S1x128 (kS P) shapeCasts_S128_S1x128) (broadcast S1x128 (Scalar.ofBits .f32 0x322BCC77#32)))
        broadcasts_S1x128_S64x128 (ix2 c w))
    = Ideal.div (∑ h : Fin 256, bcol P w c h * sm (bcol P w) h) ((∑ h : Fin 256, sm (bcol P w) h) + eps)
  rw [unit_to_channels _ c w, kW_apply P c w]
  show Ideal.div _ (shapeCast S1x128 (kS P) shapeCasts_S128_S1x128 (ix2 (0 : Fin 1) w) + eps) = _
  rw [shapeCast_apply (kS P) shapeCasts_S128_S1x128 (ix2 (0 : Fin 1) w) (ix1 w) (by
    rw [Shape.rowMajor_val_one, Shape.rowMajor_val_two]
    show w.val = 0 * 128 + w.val
    omega), kS_apply P w]

/-! ## The block -/

/-- What the body stores at (·, c, h, w) is the pooled channel c of the block's column under lane w, whatever the row h. -/
theorem block_pool_ix (a : Fin 1) (c : Fin 64) (h : Fin 256) (w : Fin 128) :
    Gen.k0_pay1 (F := Ideal) P (ix4 a c h w) = pool (bcol P w) c := by
  rw [pay_eq]
  refine (shapeCast_apply _ _ (ix4 a c h w) (ix3 c h w) (by
    rw [Shape.rowMajor_val_three, Shape.rowMajor_val_four]
    show (c.val * 256 + h.val) * 128 + w.val = ((a.val * 64 + c.val) * 256 + h.val) * 128 + w.val
    have := a.isLt
    omega)).trans ?_
  refine (broadcastTo_apply _ _ (ix3 c h w) (ix3 c (0 : Fin 1) w) (fun a' => match a' with
    | ⟨0, _⟩ => by show c.val = (if (64 : Nat) = 1 then 0 else c.val); rw [if_neg (by decide)]
    | ⟨1, _⟩ => by show 0 = (if (1 : Nat) = 1 then 0 else h.val); rw [if_pos rfl]
    | ⟨2, _⟩ => by show w.val = (if (128 : Nat) = 1 then 0 else w.val); rw [if_neg (by decide)])).trans ?_
  refine (shapeCast_apply _ _ (ix3 c (0 : Fin 1) w) (ix3 c (0 : Fin 1) w) rfl).trans ?_
  refine (shapeCast_apply _ _ (ix3 c (0 : Fin 1) w) (ix2 c w) (by
    rw [Shape.rowMajor_val_two, Shape.rowMajor_val_three]
    show c.val * 128 + w.val = (c.val * 1 + 0) * 128 + w.val
    omega)).trans ?_
  exact kQ_apply P c w

/-- The same at an arbitrary index of the block. -/
theorem block_pool (y : S1x64x256x128.Idx) : Gen.k0_pay1 (F := Ideal) P y = pool (bcol P (y 3)) (y 1) :=
  (congrArg (Gen.k0_pay1 (F := Ideal) P) (eq_ix4 y)).trans (block_pool_ix P (y 0) (y 1) (y 2) (y 3))

end Cert.BlockPool

end
-- ==== Proof.KernelArray.lean ====
/- From the blocks to the whole array.

   Grid point t = (batch entry bi, lane block wi) reads the block of the argument at block index (bi, 0, 0, wi) and
   writes the block of the result at the same block index; a block spans one batch entry, all 64 channels, all 256
   rows and 128 lanes. So the entry of a block at (·, c, h, w) sits in the array at (bi, c, h, wi * 128 + w), the
   column under a lane of the block is the array's column under (bi, wi * 128 + w), and what the point writes is the
   pooling function's block. The 32 blocks tile the array: the entry at (b, c, h, w) lies in the block of the point
   with bi = b and wi = w / 128. Hence the array the kernel leaves is the pooling function of its argument. -/
import proofs.«177151_j51994874086000_1_alg».proof.Proof.Gen.KernelIdeal.Value
import proofs.«177151_j51994874086000_1_alg».proof.Proof.BlockPool

noncomputable section

namespace Cert.KernelArray

open Cert.KernelIdeal Cert.KernelIdeal.Gen Cert.Pool Cert.BlockPool
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The body loads and stores its whole block: the access starts at the block's origin. -/
theorem origin : (![0, 0, 0, 0] : Fin 4 → Nat) = fun _ => 0 := funext fun a => by fin_cases a <;> rfl

/-- The two index maps, decided over the 32 grid points: the input block and the output block have the same batch
    and lane-block indices, and their channel and row block indices are 0. -/
theorem index_facts : ∀ t : Fin cfg0.N,
    win0_0.index t (0 : Fin 4) = win0_1.index t (0 : Fin 4)
    ∧ win0_0.index t (1 : Fin 4) = 0 ∧ win0_0.index t (2 : Fin 4) = 0
    ∧ win0_0.index t (3 : Fin 4) = win0_1.index t (3 : Fin 4)
    ∧ win0_1.index t (1 : Fin 4) = 0 ∧ win0_1.index t (2 : Fin 4) = 0 :=
  (by decide +kernel : ∀ t : Fin grid0.N, _)

/-- Every (batch entry, lane block) pair is the output block index of some grid point. -/
theorem index_onto : ∀ (q0 : Fin 16) (q3 : Fin 2), ∃ t : Fin cfg0.N, win0_1.index t = ![q0.val, 0, 0, q3.val] :=
  (by decide +kernel : ∀ (q0 : Fin 16) (q3 : Fin 2), ∃ t : Fin grid0.N, win0_1.index t = ![q0.val, 0, 0, q3.val])

/-- If a block B holds, under its lane y 3, the array's column under (i 0, i 3), then what the body stores at y is
    the pooling function of the array at i (with the same channel). -/
theorem stored_eq (x : SArr.Idx → EReal) (B : FVec Ideal S1x64x256x128 .f32) (y : S1x64x256x128.Idx) (i : SArr.Idx)
    (hB : ∀ (ch : Fin 64) (h : Fin 256), B (ix4 (0 : Fin 1) ch h (y 3)) = x (ix4 (i 0) ch h (i 3)))
    (hc : (y 1).val = (i 1).val) :
    Gen.k0_pay1 (F := Ideal) B y = G x i :=
  (block_pool B y).trans (pool_congr (funext fun ch => funext fun h => hB ch h) hc)

/-- What grid point t writes back is block t of the pooling function of the argument array. -/
theorem flushed_eq (c : Dev nD) (t : Fin cfg0.N) :
    (dats m 0 c).flushed 1 t = ((cfg0.win 1).blk t).view.read (Elt Ideal) (G (V m c main_arg0)) := by
  rw [Cert.KernelIdeal.Value.flushed1]
  unfold out0_1
  rw [View.canon_unit_zero origin]
  simp only [View.ld_unit_zero (S := S1x64x256x128) origin]
  obtain ⟨e0, e1, e2, e3, f1, f2⟩ := index_facts t
  funext y
  show Gen.k0_pay1 (F := Ideal) (iblk m c 0 t) y = G (V m c main_arg0) (((cfg0.win 1).blk t).view.emb y)
  refine stored_eq (V m c main_arg0) (iblk m c 0 t) y (((cfg0.win 1).blk t).view.emb y) (fun ch h => ?_) ?_
  · show V m c main_arg0 (((cfg0.win 0).blk t).view.emb (ix4 (0 : Fin 1) ch h (y 3))) = _
    refine congrArg (V m c main_arg0) (funext fun a => Fin.ext ?_)
    match a with
    | ⟨0, _⟩ =>
      show win0_0.index t (0 : Fin 4) * 1 + 1 * 0 = win0_1.index t (0 : Fin 4) * 1 + 1 * (y 0).val
      have hy : (y 0).val < 1 := (y 0).isLt
      omega
    | ⟨1, _⟩ => show win0_0.index t (1 : Fin 4) * 64 + 1 * ch.val = ch.val; omega
    | ⟨2, _⟩ => show win0_0.index t (2 : Fin 4) * 256 + 1 * h.val = h.val; omega
    | ⟨3, _⟩ =>
      show win0_0.index t (3 : Fin 4) * 128 + 1 * (y 3).val = win0_1.index t (3 : Fin 4) * 128 + 1 * (y 3).val
      omega
  · show (y 1).val = win0_1.index t (1 : Fin 4) * 64 + 1 * (y 1).val
    omega

/-- An index of the array is in point t's output block iff each coordinate is in the block's range on its axis. -/
theorem mem_blk (t : Fin cfg0.N) (i : S16x64x256x256.Idx) :
    i ∈ ((cfg0.win 1).blk t).view.set ↔ ∀ a : Fin 4, win0_1.index t a * S1x64x256x128.size a ≤ (i a).val
      ∧ (i a).val < win0_1.index t a * S1x64x256x128.size a + S1x64x256x128.size a := by
  show i ∈ ((View.whole main_v0).slice (win0_1.rect t)).set ↔ _
  rw [View.set_slice_whole, Rect.mem_set_unit]
  exact Iff.rfl

/-- The output blocks tile the array: the entry at (b, c, h, w) is in the block of batch entry b and lane block w / 128. -/
theorem cover (i : S16x64x256x256.Idx) :
    ∃ t : Fin cfg0.N, (cfg0.win 1).flush t = true ∧ i ∈ ((cfg0.win 1).blk t).view.set := by
  have hi0 : (i 0).val < 16 := (i 0).isLt
  have hi1 : (i 1).val < 64 := (i 1).isLt
  have hi2 : (i 2).val < 256 := (i 2).isLt
  have hi3 : (i 3).val < 256 := (i 3).isLt
  obtain ⟨t, ht⟩ := index_onto ⟨(i 0).val, hi0⟩ ⟨(i 3).val / 128, by omega⟩
  have q0 : win0_1.index t (0 : Fin 4) = (i 0).val := congrFun ht 0
  have q1 : win0_1.index t (1 : Fin 4) = 0 := congrFun ht 1
  have q2 : win0_1.index t (2 : Fin 4) = 0 := congrFun ht 2
  have q3 : win0_1.index t (3 : Fin 4) = (i 3).val / 128 := congrFun ht 3
  refine ⟨t, flush0_1 t, ?_⟩
  rw [mem_blk]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 64 ≤ (i 1).val ∧ (i 1).val < win0_1.index t (1 : Fin 4) * 64 + 64
    omega
  | ⟨2, _⟩ =>
    show win0_1.index t (2 : Fin 4) * 256 ≤ (i 2).val ∧ (i 2).val < win0_1.index t (2 : Fin 4) * 256 + 256
    omega
  | ⟨3, _⟩ =>
    show win0_1.index t (3 : Fin 4) * 128 ≤ (i 3).val ∧ (i 3).val < win0_1.index t (3 : Fin 4) * 128 + 128
    omega

/-- The result array after the run is the pooling function of the argument array. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-- The kernel's run: it terminates without a fault, the result is the pooling function of the argument, and the
    argument is unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelArray

end
-- ==== Proof.lean ====
/- The proof of `Cert.Claim`.
   Both programs compute, for every batch entry b, channel c and lane w, the softmax-weighted pooling over the rows
   h: with n h = sqrt (∑ c, x b c h w ^ 2) the norm of row h across the channels and
   s h = exp (n h - max n) / ∑ h', exp (n h' - max n) its softmax weight, the result at (b, c, h, w) is
   (∑ h', x b c h' w * s h') / (∑ h', s h' + ε), the same for every row h (Proof/PoolSpec.lean states this function
   on the extended reals). The kernel computes it block by block, one batch entry and 128 lanes at a time
   (Proof/BlockPool.lean reads its body at an index, Proof/KernelArray.lean goes from the blocks to the array);
   the reference computes it on the whole array (Proof/RefPool.lean reads it one operation at a time). The two
   differ only in how they tile and order the sums and the maximum, and in one further maximum with −∞ in the
   reference; on the extended reals addition and maximum are commutative and associative and −∞ is the bottom
   element, so the two results are the same function of the argument at every input, and the precondition that the
   input be finite is not used. The idealization rewrote nothing, so there is nothing to preserve. -/
import proofs.«177151_j51994874086000_1_alg».proof.Defs
import proofs.«177151_j51994874086000_1_alg».proof.Proof.Gen.Kernel
import proofs.«177151_j51994874086000_1_alg».proof.Proof.Gen.Kernel.Skeleton
import proofs.«177151_j51994874086000_1_alg».proof.Proof.Gen.Kernel.Launch
import proofs.«177151_j51994874086000_1_alg».proof.Proof.Gen.Kernel.Points
import proofs.«177151_j51994874086000_1_alg».proof.Proof.Gen.Kernel.Frame
import proofs.«177151_j51994874086000_1_alg».proof.Proof.Gen.KernelIdeal
import proofs.«177151_j51994874086000_1_alg».proof.Proof.Gen.KernelIdeal.Skeleton
import proofs.«177151_j51994874086000_1_alg».proof.Proof.Gen.KernelIdeal.Launch
import proofs.«177151_j51994874086000_1_alg».proof.Proof.Gen.KernelIdeal.Points
import proofs.«177151_j51994874086000_1_alg».proof.Proof.Gen.KernelIdeal.Frame
import proofs.«177151_j51994874086000_1_alg».proof.Proof.Gen.KernelIdeal.Value
import proofs.«177151_j51994874086000_1_alg».proof.Proof.Gen.ReferenceIdeal
import proofs.«177151_j51994874086000_1_alg».proof.Proof.Gen.ReferenceIdeal.Run
import proofs.«177151_j51994874086000_1_alg».proof.Proof.Gen.ReferenceIdeal.Read
import proofs.«177151_j51994874086000_1_alg».proof.Proof.Gen.Pre_finite_inputs
import proofs.«177151_j51994874086000_1_alg».proof.Proof.PoolSpec
import proofs.«177151_j51994874086000_1_alg».proof.Proof.RefPool
import proofs.«177151_j51994874086000_1_alg».proof.Proof.BlockPool
import proofs.«177151_j51994874086000_1_alg».proof.Proof.KernelArray
import Idealize.ShloMosaic.Adequacy
import Idealize.ShloMosaic.Init

noncomputable section

namespace Cert.Proof

open Idealize.ShloMosaic Idealize.SL.Sem

/-- The kernel as printed runs, and leaves its argument as it found it. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its argument as it found it: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the argument, the idealized kernel ends with the pooling function of the argument
    (Proof/KernelArray.lean) and the reference with the same function of the same argument (Proof/RefPool.lean). -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.RefPool.ref_G, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
